-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S4x16x64x1024 : Shape := ⟨4, ![4, 16, 64, 1024]⟩
abbrev S4x1x1024x1024 : Shape := ⟨4, ![4, 1, 1024, 1024]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel
  bcast_S_S4x16x64x1024 : S_.BroadcastsInDim S4x16x64x1024 (![] : Fin 0 → Fin S4x16x64x1024.rank)
  reducesTo_S4x16x64x1024_S_d0_1_2_3 : S4x16x64x1024.ReducesTo [0, 1, 2, 3] S_
  bcast_S_S4x1x1024x1024 : S_.BroadcastsInDim S4x1x1024x1024 (![] : Fin 0 → Fin S4x1x1024x1024.rank)
  reducesTo_S4x1x1024x1024_S_d0_1_2_3 : S4x1x1024x1024.ReducesTo [0, 1, 2, 3] S_

variable [Facts]

def fn_part1 {F : FTy → Type} [FloatOps F] (main_v13 : IVec S_ 1) (main_v16 : IVec S4x1x1024x1024 1) : IVec S_ 1 :=
  let main_c_5 : IVec S_ 1 := constantI S_ 1 1#1
  let main_v17 : IVec S_ 1 := (fun x v => Host.reduce IntOp.andi x v reducesTo_S4x1x1024x1024_S_d0_1_2_3 h_S_) main_v16 main_c_5
  let main_v18 : IVec S_ 1 := andi main_v13 main_v17
  main_v18

def fn {F : FTy → Type} [FloatOps F] (main_arg0 : FVec F S4x16x1024x64 .f32) (main_arg1 : FVec F S4x16x64x1024 .f32) (main_arg2 : FVec F S4x16x1024x64 .f32) (main_arg3 : FVec F S4x1x1024x1024 .f32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x64x1024 .f32 := Host.absf main_arg1
  let main_cst_0 : FVec F S_ .f32 := constant S_ .f32 0x7F800000#32
  let main_v5 : FVec F S4x16x64x1024 .f32 := broadcastInDim S4x16x64x1024 ![] bcast_S_S4x16x64x1024 main_cst_0
  let main_v6 : IVec S4x16x64x1024 1 := cmpf .olt main_v4 main_v5
  let main_c_1 : IVec S_ 1 := constantI S_ 1 1#1
  let main_v7 : IVec S_ 1 := (fun x v => Host.reduce IntOp.andi x v reducesTo_S4x16x64x1024_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  let main_v14 : FVec F S4x1x1024x1024 .f32 := Host.absf main_arg3
  let main_cst_4 : FVec F S_ .f32 := constant S_ .f32 0x7F800000#32
  let main_v15 : FVec F S4x1x1024x1024 .f32 := broadcastInDim S4x1x1024x1024 ![] bcast_S_S4x1x1024x1024 main_cst_4
  let main_v16 : IVec S4x1x1024x1024 1 := cmpf .olt main_v14 main_v15
  fn_part1 (F := F) main_v13 main_v16
-- ==== Kernel.lean ====
abbrev S4x16x1024x64 : Shape := ⟨4, ![4, 16, 1024, 64]⟩
abbrev S4x16x64x1024 : Shape := ⟨4, ![4, 16, 64, 1024]⟩
abbrev S4x1x1024x1024 : Shape := ⟨4, ![4, 1, 1024, 1024]⟩
abbrev S4x16x1024x1024 : Shape := ⟨4, ![4, 16, 1024, 1024]⟩
abbrev S1x1x512x64 : Shape := ⟨4, ![1, 1, 512, 64]⟩
abbrev S1x1x64x1024 : Shape := ⟨4, ![1, 1, 64, 1024]⟩
abbrev S1x1x1024x64 : Shape := ⟨4, ![1, 1, 1024, 64]⟩
abbrev S1x1x512x1024 : Shape := ⟨4, ![1, 1, 512, 1024]⟩
abbrev S512x64 : Shape := ⟨2, ![512, 64]⟩
abbrev S64x1024 : Shape := ⟨2, ![64, 1024]⟩
abbrev S1024x64 : Shape := ⟨2, ![1024, 64]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x1024x64, .f32⟩
  | .hbm, ⟨1, _⟩ => ⟨S4x16x64x1024, .f32⟩
  | .hbm, ⟨2, _⟩ => ⟨S4x16x1024x64, .f32⟩
  | .hbm, ⟨3, _⟩ => ⟨S4x1x1024x1024, .f32⟩
  | .hbm, ⟨4, _⟩ => ⟨S4x16x1024x64, .f32⟩
  | .hbm, ⟨5, _⟩ => ⟨S4x16x1024x1024, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x64x1024, .f32⟩
  | .local _ .vmem, ⟨3, _⟩ => ⟨S1x1x64x1024, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x1024, .f32⟩
  | .local _ .vmem, ⟨11, _⟩ => ⟨S1x1x512x1024, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x64x1024_S1x1x64x1024_0_0_0_0 : ∀ a, (![0, 0, 0, 0] : Fin 4 → Nat) a + S1x1x64x1024.size a ≤ S1x1x64x1024.size a
  h_S1x1x64x1024 : 0 < S1x1x64x1024.numel
  shapeCasts_S1x1x64x1024_S64x1024 : S1x1x64x1024.ShapeCasts S64x1024
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  bitsLt_bf16_f32 : FTy.bits .bf16 < FTy.bits .f32
  reduces_S512x1024_S512 : S512x1024.Reduces [1] S512
  shapeCasts_S512_S512x1 : S512.ShapeCasts S512x1
  broadcasts_S512x1_S512x1024 : S512x1.Broadcasts S512x1024
  shapeCasts_S512x1024_S1x1x512x1024 : S512x1024.ShapeCasts S1x1x512x1024
  shapeCasts_S512x64_S1x1x512x64 : S512x64.ShapeCasts S1x1x512x64
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x1024x64.size a
  hwx0_0 : ∀ i : grid0.Coords, EltTy.bits .f32 = 32 ∨ (Rect.block (s := S4x16x1024x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x1024.size a ≤ S4x16x64x1024.size a
  hwx0_1 : ∀ i : grid0.Coords, EltTy.bits .f32 = 32 ∨ (Rect.block (s := S4x16x64x1024) S1x1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S4x16x1024x64.size a
  hwx0_2 : ∀ i : grid0.Coords, EltTy.bits .f32 = 32 ∨ (Rect.block (s := S4x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x1024.size a ≤ S4x1x1024x1024.size a
  hwx0_3 : ∀ i : grid0.Coords, EltTy.bits .f32 = 32 ∨ (Rect.block (s := S4x1x1024x1024) S1x1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x1024x64.size a
  hwx0_4 : ∀ i : grid0.Coords, EltTy.bits .f32 = 32 ∨ (Rect.block (s := S4x16x1024x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x1024.size a ≤ S4x16x1024x1024.size a
  hwx0_5 : ∀ i : grid0.Coords, EltTy.bits .f32 = 32 ∨ (Rect.block (s := S4x16x1024x1024) S1x1x512x1024.size (cc0_transform_5 i) (hinb0_5 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x16x64x1024 : Shape := ⟨4, ![4, 16, 64, 1024]⟩
abbrev S4x1x1024x1024 : Shape := ⟨4, ![4, 1, 1024, 1024]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x64x1024, .f32⟩
  | .hbm, ⟨2, _⟩ => ⟨S4x16x1024x64, .f32⟩
  | .hbm, ⟨3, _⟩ => ⟨S4x1x1024x1024, .f32⟩
  | .hbm, ⟨4, _⟩ => ⟨S4x16x1024x1024, .f32⟩
  | .hbm, ⟨5, _⟩ => ⟨S_, .f32⟩
  | .hbm, ⟨6, _⟩ => ⟨S4x16x1024x1024, .f32⟩
  | .hbm, ⟨7, _⟩ => ⟨S4x16x1024x1024, .f32⟩
  | .hbm, ⟨8, _⟩ => ⟨S4x16x1024x1024, .f32⟩
  | .hbm, ⟨9, _⟩ => ⟨S4x16x1024x1024, .f32⟩
  | .hbm, ⟨10, _⟩ => ⟨S_, .f32⟩
  | .hbm, ⟨11, _⟩ => ⟨S4x1x1024x1024, .f32⟩
  | .hbm, ⟨12, _⟩ => ⟨S4x1x1024x1024, .f32⟩
  | .hbm, ⟨13, _⟩ => ⟨S_, .f32⟩
  | .hbm, ⟨14, _⟩ => ⟨S4x1x1024x1024, .f32⟩
  | .hbm, ⟨15, _⟩ => ⟨S4x1x1024x1024, .f32⟩
  | .hbm, ⟨16, _⟩ => ⟨S4x16x1024x1024, .f32⟩
  | .hbm, ⟨17, _⟩ => ⟨S4x16x1024x1024, .f32⟩
  | .hbm, ⟨18, _⟩ => ⟨S_, .f32⟩
  | .hbm, ⟨19, _⟩ => ⟨S4x16x1024, .f32⟩
  | .hbm, ⟨20, _⟩ => ⟨S_, .f32⟩
  | .hbm, ⟨21, _⟩ => ⟨S4x16x1024, .f32⟩
  | .hbm, ⟨22, _⟩ => ⟨S4x16x1024, .f32⟩
  | .hbm, ⟨23, _⟩ => ⟨S4x16x1024x1, .f32⟩
  | .hbm, ⟨24, _⟩ => ⟨S4x16x1024x1024, .f32⟩
  | .hbm, ⟨25, _⟩ => ⟨S4x16x1024x1024, .f32⟩
  | .hbm, ⟨26, _⟩ => ⟨S4x16x1024x1024, .f32⟩
  | .hbm, ⟨27, _⟩ => ⟨S_, .f32⟩
  | .hbm, ⟨28, _⟩ => ⟨S4x16x1024, .f32⟩
  | .hbm, ⟨29, _⟩ => ⟨S4x16x1024x1, .f32⟩
  | .hbm, ⟨30, _⟩ => ⟨S4x16x1024x1024, .f32⟩
  | .hbm, ⟨31, _⟩ => ⟨S4x16x1024x1024, .f32⟩
  | .hbm, ⟨32, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S4x16x1024x1024 : S_.BroadcastsInDim S4x16x1024x1024 (![] : Fin 0 → Fin S4x16x1024x1024.rank)
  bcast_S4x1x1024x1024_S4x16x1024x1024_0_1_2_3 : S4x1x1024x1024.BroadcastsInDim S4x16x1024x1024 (![0, 1, 2, 3] : Fin 4 → Fin S4x16x1024x1024.rank)
  bcast_S_S4x1x1024x1024 : S_.BroadcastsInDim S4x1x1024x1024 (![] : Fin 0 → Fin S4x1x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x64x1024_S4x16x1024x1024_3_2_2_3_01_01_wf : DotDims.WF S4x16x1024x64 S4x16x64x1024 S4x16x1024x1024 [3] [2] [2] [3] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x64x1024_S4x16x1024x1024_3_2_2_3_01_01 : DotDims S4x16x1024x64 S4x16x64x1024 S4x16x1024x1024 where
  lhsContracting := [3]
  rhsContracting := [2]
  lhsNonContracting := [2]
  rhsNonContracting := [3]
  lhsBatch := [0, 1]
  rhsBatch := [0, 1]
  wf := dot_S4x16x1024x64_S4x16x64x1024_S4x16x1024x1024_3_2_2_3_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.Consts.lean ====
/-
  The two float constants whose values the proof needs: the kernel scales the queries by the pattern of 0.125 and the
  reference divides the scores by the pattern of 8.0. Both are exact binary fractions, so the first is the real 1/8
  and the second the real 8.
-/
import Idealize.ShloMosaic.PureOps.Ideal

noncomputable section

namespace Cert.Consts

open Idealize.ShloMosaic

/-- The pattern of `8.0` denotes the real number 8. -/
theorem ofBits_eight : Ideal.ofBits .f32 0x41000000#32 = ((8 : ℝ) : EReal) := by
  simp [Ideal.ofBits, Ideal.ieee, -EReal.coe_mul]; norm_num

/-- The pattern of `0.125` denotes the real number 1/8. -/
theorem ofBits_eighth : Ideal.ofBits .f32 0x3E000000#32 = ((1 / 8 : ℝ) : EReal) := by
  simp [Ideal.ofBits, Ideal.ieee, -EReal.coe_mul]; norm_num

end Cert.Consts

end
-- ==== Proof.Attention.lean ====
/-
  MASKED SCALED-DOT-PRODUCT ATTENTION ON THE EXTENDED REALS: the function both programs compute, and the one law that
  joins their two spellings of the scores.

  For a batch `n`, a head `h` and a query row `l`, the score against key `j` is the inner product over the 64
  features of the query row with key column `j`, scaled by 1/8. A mask entry `mk` blends a score `s` linearly
  with a large negative number: `mk · s + (1 - mk) · c`. The attention weights of the row are the softmax of the
  blended scores over the 1024 keys — `exp (b j - max b) / ∑ k, exp (b k - max b)` — and the output row is the
  weights' combination of the value rows.

  One program scales every query entry by the pattern of 0.125 before the inner product; the other divides the inner
  product by the pattern of 8.0. On real entries these agree (the scale leaves the sum); on the extended reals the
  step is not available at infinities, so it is stated for arrays whose entries are real.
-/
import Mathlib
import Idealize.ShloMosaic.PureOps.Ideal
import Idealize.ShloMosaic.Lib.ValueIdx
import proofs.«125262_j206158430384_2_alg».proof.Proof.Consts

noncomputable section

open scoped BigOperators

namespace Cert.Attention

open Idealize.ShloMosaic Idealize.ShloMosaic.ValueIdx

/-- Queries and values: batch × head × position × feature. -/
abbrev SQ : Shape := ⟨4, ![4, 16, 1024, 64]⟩
/-- Keys, already transposed: batch × head × feature × position. -/
abbrev SK : Shape := ⟨4, ![4, 16, 64, 1024]⟩
/-- The mask, shared by the heads: batch × 1 × query position × key position. -/
abbrev SM : Shape := ⟨4, ![4, 1, 1024, 1024]⟩
/-- The attention weights: batch × head × query position × key position. -/
abbrev SW : Shape := ⟨4, ![4, 16, 1024, 1024]⟩

/-- A finite sum of reals, read in the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The linear blend of a score `s` with the large negative constant, by the mask entry `mk`:
    `mk · s + (1 - mk) · c`. The constants stay as their patterns: both programs spell the same words. -/
def blend (mk s : EReal) : EReal :=
  mk * s + (Ideal.ofBits .f32 0x3F800000#32 - mk) * Ideal.ofBits .f32 0xCE6E6B28#32

/-- The largest entry of a row, folded from the pattern of `-∞`. -/
def rowMax {n : ℕ} (b : Fin n → EReal) : EReal :=
  (Finset.univ : Finset (Fin n)).fold max (Ideal.ofBits .f32 0xFF800000#32) b

/-- The softmax of a row at entry `j`: `exp (b j - max b) / ∑ k, exp (b k - max b)`. -/
def softmax {n : ℕ} (b : Fin n → EReal) (j : Fin n) : EReal :=
  Ideal.div (Ideal.exp (b j - rowMax b)) (∑ k : Fin n, Ideal.exp (b k - rowMax b))

/-- Folding the maximum once more against the fold's own starting value changes nothing: the fold is already above it. -/
theorem max_init_rowMax {n : ℕ} (b : Fin n → EReal) : max (Ideal.ofBits .f32 0xFF800000#32) (rowMax b) = rowMax b := by
  unfold rowMax
  exact max_eq_right ((Finset.le_fold_max _).2 (Or.inl le_rfl))

/-- The score of query row `(n, h, l)` against key `j`, each query entry scaled by the pattern of 0.125 first. -/
def scoreScaled (Q : SQ.Idx → EReal) (K : SK.Idx → EReal) (n : Fin 4) (h : Fin 16) (l j : Fin 1024) : EReal :=
  ∑ d : Fin 64, (Q (ix4 n h l d) * Ideal.ofBits .f32 0x3E000000#32) * K (ix4 n h d j)

/-- The same score with the inner product taken first and divided by the pattern of 8.0. -/
def scoreDivided (Q : SQ.Idx → EReal) (K : SK.Idx → EReal) (n : Fin 4) (h : Fin 16) (l j : Fin 1024) : EReal :=
  Ideal.div (∑ d : Fin 64, Q (ix4 n h l d) * K (ix4 n h d j)) (Ideal.ofBits .f32 0x41000000#32)

/-- THE LAW. On real entries, dividing the inner product by 8 is scaling every query entry by 1/8: in the reals the
    factor 1/8 leaves the sum. -/
theorem scoreDivided_eq_scoreScaled (Q : SQ.Idx → EReal) (K : SK.Idx → EReal)
    (hQ : ∀ i, ∃ r : ℝ, Q i = (r : EReal)) (hK : ∀ i, ∃ r : ℝ, K i = (r : EReal))
    (n : Fin 4) (h : Fin 16) (l j : Fin 1024) : scoreDivided Q K n h l j = scoreScaled Q K n h l j := by
  choose q hq using hQ
  choose k hk using hK
  unfold scoreDivided scoreScaled
  rw [Cert.Consts.ofBits_eight, Cert.Consts.ofBits_eighth, Ideal.div_coe (by norm_num : (8 : ℝ) ≠ 0)]
  simp only [hq, hk, ← EReal.coe_mul, ← coe_sum]
  rw [Finset.sum_mul]
  congr 1
  refine Finset.sum_congr rfl fun d _ => ?_
  ring

/-- The attention weights: for each batch, head and query row, the softmax over the keys of the blended scores. -/
def weights (Q : SQ.Idx → EReal) (K : SK.Idx → EReal) (Mk : SM.Idx → EReal) : SW.Idx → EReal := fun i =>
  softmax (fun j : Fin 1024 => blend (Mk (ix4 (i 0) (0 : Fin 1) (i 2) j)) (scoreScaled Q K (i 0) (i 1) (i 2) j)) (i 3)

/-- The weights at an index given by its four coordinates. -/
theorem weights_apply (Q : SQ.Idx → EReal) (K : SK.Idx → EReal) (Mk : SM.Idx → EReal) (n : Fin 4) (h : Fin 16)
    (l j : Fin 1024) :
    weights Q K Mk (ix4 n h l j)
      = softmax (fun k : Fin 1024 => blend (Mk (ix4 n (0 : Fin 1) l k)) (scoreScaled Q K n h l k)) j := rfl

/-- The attention output: each query row's weights combine the value rows. -/
def output (Q : SQ.Idx → EReal) (K : SK.Idx → EReal) (Vl : SQ.Idx → EReal) (Mk : SM.Idx → EReal) : SQ.Idx → EReal :=
  fun i => ∑ j : Fin 1024, weights Q K Mk (ix4 (i 0) (i 1) (i 2) j) * Vl (ix4 (i 0) (i 1) j (i 3))

/-- The output at an index given by its four coordinates. -/
theorem output_apply (Q : SQ.Idx → EReal) (K : SK.Idx → EReal) (Vl : SQ.Idx → EReal) (Mk : SM.Idx → EReal) (n : Fin 4)
    (h : Fin 16) (l : Fin 1024) (e : Fin 64) :
    output Q K Vl Mk (ix4 n h l e) = ∑ j : Fin 1024, weights Q K Mk (ix4 n h l j) * Vl (ix4 n h j e) := rfl

end Cert.Attention

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibRowSoftmax.lean ====
/-
  ROW-WISE SOFTMAX ON A BLOCK, AS A DEVICE BODY SPELLS IT, READ AT AN INDEX — generic in the block's extents.

  A body that normalises each row of an `a × b` block takes the row maximum, keeps it as an `a × 1` column, spreads
  the column back over the `b` columns, subtracts, exponentiates, takes the row sums the same way and divides. Read at
  `(p, q)` on the extended reals this is `exp (B (p, q) - M) / ∑ k, exp (B (p, k) - M)` with `M` the fold of `max`
  over row `p` from the accumulator's value. Also here: the recasts between an `a × b` block and the same block under
  two leading unit axes, which keep every entry where it is.
-/
import Idealize.ShloMosaic.PureOps.Ideal.Laws
import Idealize.ShloMosaic.Lib.ValueIdx
import Idealize.ShloMosaic.Lib.Pipeline.Value
import proofs.«125262_j206158430384_2_alg».proof.Proof.LibColumnCast
import proofs.«125262_j206158430384_2_alg».proof.Proof.LibMatOps

noncomputable section

open scoped BigOperators

namespace Cert.LibRowSoftmax

open Idealize.ShloMosaic Idealize.ShloMosaic.ValueIdx

/-- A `1 × 1 × a × b` array recast as `a × b` reads, at `(p, q)`, the entry `(0, 0, p, q)`. -/
theorem cast_drop2 {a b : ℕ} {α : Type} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- An `a × b` array recast as `1 × 1 × a × b` reads, at `(0, 0, p, q)`, the entry `(p, q)`. -/
theorem cast_add2 {a b : ℕ} {α : Type} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_two, Shape.rowMajor_val_four]
    show p.val * b + q.val = ((0 * 1 + 0) * a + p.val) * b + q.val
    simp)

/-- Row `p` with the column coordinate `k` put back is the index `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The row maximum kept as a column and spread back over the columns reads, at `(p, q)`, the fold of `max` over
    row `p` from the accumulator's value. -/
theorem rowMax_keepdims {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .maximumf [1] ⟨1, ![a]⟩ v acc h hφ hacc) hc) hb (ix2 p q)
      = (Finset.univ : Finset (Fin b)).fold max (Ideal.ofBits φ acc) (fun k => v (ix2 p k)) := by
  rw [Cert.MatOps.broadcastTo_a1_ab_apply, Cert.LibColumnCast.column_cast]
  refine (Ideal.multiReduction_maximumf_single v acc h hφ hacc (ix1 p)).trans ?_
  show (Finset.univ : Finset (Fin b)).fold max (Ideal.ofBits φ acc) (v ∘ h.lift (ix1 p)) = _
  congr 1
  funext k
  exact congrArg v (lift_row h p k)

/-- The row sum kept as a column and spread back over the columns reads, at `(p, q)`, the sum over row `p`. -/
theorem rowSum_keepdims {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ v acc h hφ hacc) hc) hb (ix2 p q)
      = ∑ k : Fin b, v (ix2 p k) := by
  rw [Cert.MatOps.broadcastTo_a1_ab_apply, Cert.LibColumnCast.column_cast]
  refine (Ideal.multiReduction_add_single v acc h hφ hacc (ix1 p)).trans ?_
  show ∑ k : Fin b, v (h.lift (ix1 p) k) = _
  refine Finset.sum_congr rfl fun k _ => ?_
  exact congrArg v (lift_row h p k)

/-- THE BODY'S SOFTMAX AT AN INDEX. For an `a × b` block `B` of single-precision values: the exponential of the block
    less its spread row maximum, divided by the spread row sum of that exponential, reads at `(p, q)`
    `exp (B (p, q) - M) / ∑ k, exp (B (p, k) - M)`, `M` the fold of `max` over row `p` from the pattern `accM`. -/
theorem softmax_keepdims {a b : ℕ} (B : FVec Ideal ⟨2, ![a, b]⟩ .f32) (accM accS : BitVec 32)
    (h : (⟨2, ![a, b]⟩ : Shape).Reduces [1] ⟨1, ![a]⟩) (hφ : FKind.Formats .f32)
    (hM : accM = FKind.maximumf.neutral .f32 hφ) (hS : accS = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    divf
        (exp (subf B (broadcastTo ⟨2, ![a, b]⟩ (shapeCast ⟨2, ![a, 1]⟩ (multiReduction .maximumf [1] ⟨1, ![a]⟩ B accM h hφ hM) hc) hb)))
        (broadcastTo ⟨2, ![a, b]⟩ (shapeCast ⟨2, ![a, 1]⟩ (multiReduction .add [1] ⟨1, ![a]⟩
          (exp (subf B (broadcastTo ⟨2, ![a, b]⟩ (shapeCast ⟨2, ![a, 1]⟩ (multiReduction .maximumf [1] ⟨1, ![a]⟩ B accM h hφ hM) hc) hb)))
          accS h hφ hS) hc) hb)
        (ix2 p q)
      = Ideal.div
          (Ideal.exp (B (ix2 p q) - (Finset.univ : Finset (Fin b)).fold max (Ideal.ofBits .f32 accM) (fun k => B (ix2 p k))))
          (∑ k : Fin b, Ideal.exp (B (ix2 p k) - (Finset.univ : Finset (Fin b)).fold max (Ideal.ofBits .f32 accM) (fun k => B (ix2 p k)))) := by
  have hmax : ∀ k : Fin b,
      broadcastTo ⟨2, ![a, b]⟩ (shapeCast ⟨2, ![a, 1]⟩ (multiReduction .maximumf [1] ⟨1, ![a]⟩ B accM h hφ hM) hc) hb (ix2 p k)
        = (Finset.univ : Finset (Fin b)).fold max (Ideal.ofBits .f32 accM) (fun k => B (ix2 p k)) :=
    fun k => rowMax_keepdims B accM h hφ hM hc hb p k
  refine congrArg₂ Ideal.div ?_ ?_
  · exact congrArg (fun M => Ideal.exp (B (ix2 p q) - M)) (hmax q)
  · refine (rowSum_keepdims _ accS h hφ hS hc hb p q).trans ?_
    refine Finset.sum_congr rfl fun k _ => ?_
    exact congrArg (fun M => Ideal.exp (B (ix2 p k) - M)) (hmax k)

end Cert.LibRowSoftmax

end
-- ==== Proof.Payload.lean ====
/-
  WHAT THE BODY COMPUTES AT ONE GRID POINT, ENTRY BY ENTRY.

  At a point the body holds a `512 × 64` block of queries `x0`, the `64 × 1024` keys `x1` and the `1024 × 64` values
  `x2` of one batch and head, and the `512 × 1024` mask block `x3` of the same query rows. It scales the queries by the
  pattern of 0.125, multiplies by the keys into zeros, blends with the mask, normalises every row by softmax — these are
  the attention weights it stores — and multiplies the weights by the values into zeros, which it stores as the output.
  Changes of float format are the identity on the extended reals, so the weights block at `(p, q)` is the softmax at
  `q` of row `p`'s blended scores, and the output block at `(p, e)` the weights' combination of column `e` of the values.
-/
import proofs.«125262_j206158430384_2_alg».proof.Proof.Gen.KernelIdeal.Skeleton
import proofs.«125262_j206158430384_2_alg».proof.Proof.Attention
import proofs.«125262_j206158430384_2_alg».proof.Proof.LibRowSoftmax

noncomputable section

open scoped BigOperators

namespace Cert.KernelIdeal.Payload

open Cert.KernelIdeal Cert.KernelIdeal.Gen Idealize.ShloMosaic Idealize.ShloMosaic.ValueIdx
open Cert.Attention Cert.LibRowSoftmax

/-- The mask block as a `512 × 1024` matrix. -/
def maskRows (x3 : Vec Ideal S1x1x512x1024 .f32) : FVec Ideal S512x1024 .f32 :=
  shapeCast S512x1024 x3 shapeCasts_S1x1x512x1024_S512x1024

/-- The query block scaled by the pattern of 0.125, as the matrix unit's left operand. -/
def scaledQueries (x0 : Vec Ideal S1x1x512x64 .f32) : FVec Ideal S512x64 .bf16 :=
  have v1 : FVec Ideal S512x64 .f32 := shapeCast S512x64 x0 shapeCasts_S1x1x512x64_S512x64
  have cst : Ideal .f32 := Scalar.ofBits .f32 0x3E000000#32
  have v8 : FVec Ideal S512x64 .f32 := broadcast S512x64 cst
  have v9 : FVec Ideal S512x64 .f32 := mulf v1 v8
  truncf .bf16 v9 bitsLt_bf16_f32

/-- The keys as the matrix unit's right operand. -/
def keyColumns (x1 : Vec Ideal S1x1x64x1024 .f32) : FVec Ideal S64x1024 .bf16 :=
  have v3 : FVec Ideal S64x1024 .f32 := shapeCast S64x1024 x1 shapeCasts_S1x1x64x1024_S64x1024
  truncf .bf16 v3 bitsLt_bf16_f32

/-- The scores: the scaled queries times the keys, accumulated into zeros. -/
def scores (x0 : Vec Ideal S1x1x512x64 .f32) (x1 : Vec Ideal S1x1x64x1024 .f32) : FVec Ideal S512x1024 .f32 :=
  matmul dot_S512x64_S64x1024_S512x1024_1_0_0_1_n_n none (scaledQueries x0) (keyColumns x1)
    (constant S512x1024 .f32 0x00000000#32)

/-- The blended scores of the point's `512` query rows against the `1024` keys, as the body spells them. -/
def scoreBlock (x0 : Vec Ideal S1x1x512x64 .f32) (x1 : Vec Ideal S1x1x64x1024 .f32) (x3 : Vec Ideal S1x1x512x1024 .f32) :
    FVec Ideal S512x1024 .f32 :=
  have cst_16 : Ideal .f32 := Scalar.ofBits .f32 0x3F800000#32
  have cst_17 : Ideal .f32 := Scalar.ofBits .f32 0xCE6E6B28#32
  addf (mulf (maskRows x3) (scores x0 x1))
    (mulf (subf (broadcast S512x1024 cst_16) (maskRows x3)) (broadcast S512x1024 cst_17))

/-- The mask block's row `p`, column `j`. -/
theorem maskRows_apply (x3 : Vec Ideal S1x1x512x1024 .f32) (p : Fin 512) (j : Fin 1024) :
    maskRows x3 (ix2 p j) = x3 (ix4 (0 : Fin 1) (0 : Fin 1) p j) :=
  cast_drop2 x3 _ p j

/-- The score of query row `p` against key `j`: the inner product over the features of the scaled row with the key. -/
theorem scores_apply (x0 : Vec Ideal S1x1x512x64 .f32) (x1 : Vec Ideal S1x1x64x1024 .f32) (p : Fin 512) (j : Fin 1024) :
    scores x0 x1 (ix2 p j)
      = ∑ d : Fin 64, (x0 (ix4 (0 : Fin 1) (0 : Fin 1) p d) * Ideal.ofBits .f32 0x3E000000#32) * x1 (ix4 (0 : Fin 1) (0 : Fin 1) d j) := by
  refine (Cert.MatOps.matmul_plain_apply (M := 512) (K := 64) (C := 1024)
    dot_S512x64_S64x1024_S512x1024_1_0_0_1_n_n_wf none (scaledQueries x0) (keyColumns x1) p j).trans ?_
  refine Finset.sum_congr rfl fun d _ => ?_
  show ((shapeCast S512x64 x0 shapeCasts_S1x1x512x64_S512x64 : FVec Ideal S512x64 .f32) (ix2 p d) * Ideal.ofBits .f32 0x3E000000#32)
      * (shapeCast S64x1024 x1 shapeCasts_S1x1x64x1024_S64x1024 : FVec Ideal S64x1024 .f32) (ix2 d j) = _
  rw [cast_drop2 x0 _ p d, cast_drop2 x1 _ d j]

/-- The blended score of query row `p` against key `j`: the mask entry blends the scaled inner product. -/
theorem scoreBlock_apply (x0 : Vec Ideal S1x1x512x64 .f32) (x1 : Vec Ideal S1x1x64x1024 .f32)
    (x3 : Vec Ideal S1x1x512x1024 .f32) (p : Fin 512) (j : Fin 1024) :
    scoreBlock x0 x1 x3 (ix2 p j)
      = blend (x3 (ix4 (0 : Fin 1) (0 : Fin 1) p j))
          (∑ d : Fin 64, (x0 (ix4 (0 : Fin 1) (0 : Fin 1) p d) * Ideal.ofBits .f32 0x3E000000#32) * x1 (ix4 (0 : Fin 1) (0 : Fin 1) d j)) := by
  show maskRows x3 (ix2 p j) * scores x0 x1 (ix2 p j)
      + (Ideal.ofBits .f32 0x3F800000#32 - maskRows x3 (ix2 p j)) * Ideal.ofBits .f32 0xCE6E6B28#32 = _
  rw [maskRows_apply, scores_apply]
  rfl

/-- THE WEIGHTS BLOCK: at `(p, q)` the softmax, at key `q`, of row `p`'s blended scores. -/
theorem weights_block (x0 : Vec Ideal S1x1x512x64 .f32) (x1 : Vec Ideal S1x1x64x1024 .f32)
    (x3 : Vec Ideal S1x1x512x1024 .f32) (p : Fin 512) (q : Fin 1024) :
    k0_pay3 x0 x1 x3 (ix2 p q)
      = softmax (fun j : Fin 1024 => blend (x3 (ix4 (0 : Fin 1) (0 : Fin 1) p j))
          (∑ d : Fin 64, (x0 (ix4 (0 : Fin 1) (0 : Fin 1) p d) * Ideal.ofBits .f32 0x3E000000#32) * x1 (ix4 (0 : Fin 1) (0 : Fin 1) d j))) q := by
  refine (softmax_keepdims (scoreBlock x0 x1 x3) 0xFF800000#32 0x00000000#32 reduces_S512x1024_S512 (.inl rfl) rfl rfl
    shapeCasts_S512_S512x1 broadcasts_S512x1_S512x1024 p q).trans ?_
  have hrow : (fun k : Fin 1024 => scoreBlock x0 x1 x3 (ix2 p k))
      = fun j : Fin 1024 => blend (x3 (ix4 (0 : Fin 1) (0 : Fin 1) p j))
          (∑ d : Fin 64, (x0 (ix4 (0 : Fin 1) (0 : Fin 1) p d) * Ideal.ofBits .f32 0x3E000000#32) * x1 (ix4 (0 : Fin 1) (0 : Fin 1) d j)) :=
    funext fun k => scoreBlock_apply x0 x1 x3 p k
  show softmax (fun k : Fin 1024 => scoreBlock x0 x1 x3 (ix2 p k)) q = _
  rw [hrow]

/-- The weights times the values, accumulated into zeros. -/
def weightedValues (x2 : Vec Ideal S1x1x1024x64 .f32) (W : FVec Ideal S512x1024 .f32) : FVec Ideal S512x64 .f32 :=
  matmul dot_S512x1024_S1024x64_S512x64_1_0_0_1_n_n none (truncf .bf16 W bitsLt_bf16_f32)
    (truncf .bf16 (k0_pay2 x2) bitsLt_bf16_f32) (constant S512x64 .f32 0x00000000#32)

/-- THE OUTPUT BLOCK: at `(0, 0, p, e)` the combination, by row `p` of the weights `W`, of column `e` of the values. -/
theorem output_block (x2 : Vec Ideal S1x1x1024x64 .f32) (W : FVec Ideal S512x1024 .f32) (p : Fin 512) (e : Fin 64) :
    k0_pay1 (k0_pay2 x2) W (ix4 (0 : Fin 1) (0 : Fin 1) p e)
      = ∑ j : Fin 1024, W (ix2 p j) * x2 (ix4 (0 : Fin 1) (0 : Fin 1) j e) := by
  refine (cast_add2 (weightedValues x2 W) shapeCasts_S512x64_S1x1x512x64 p e).trans ?_
  refine (Cert.MatOps.matmul_plain_apply (M := 512) (K := 1024) (C := 64)
    dot_S512x1024_S1024x64_S512x64_1_0_0_1_n_n_wf none (truncf .bf16 W bitsLt_bf16_f32)
    (truncf .bf16 (k0_pay2 x2) bitsLt_bf16_f32) p e).trans ?_
  refine Finset.sum_congr rfl fun j _ => ?_
  show W (ix2 p j) * (shapeCast S1024x64 x2 shapeCasts_S1x1x1024x64_S1024x64 : FVec Ideal S1024x64 .f32) (ix2 j e) = _
  rw [cast_drop2 x2 _ j e]

end Cert.KernelIdeal.Payload

end
-- ==== Proof.KernelValue.lean ====
/-
  FROM THE GRID'S BLOCKS TO THE TWO RESULT ARRAYS.

  The grid has a point for every batch `n`, half `qi` of the query rows and head `h`. At that point the body sees
  query rows `512·qi … 512·qi + 511` of `(n, h)`, all keys and values of `(n, h)`, and the same query rows of the
  mask of batch `n`; it writes back the same rows of the weights and of the output of `(n, h)`. So what a point
  writes back is a block of ONE function of the argument arrays — the attention weights, respectively the attention
  output — and since the blocks written back tile both result arrays, after the run the arrays are those functions.
-/
import proofs.«125262_j206158430384_2_alg».proof.Proof.Gen.KernelIdeal.Value
import Idealize.ShloMosaic.Lib.Pipeline.Value
import proofs.«125262_j206158430384_2_alg».proof.Proof.Payload

noncomputable section

open scoped BigOperators

namespace Cert.KernelIdeal.Arrays

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Attention Cert.KernelIdeal.Payload

variable (m : (ℓ : Loc nD τ sig) → Buf (Elt Ideal) ℓ) (ρ : Dev nD → PrngReg)

theorem hz : (![0, 0, 0, 0] : Fin 4 → Nat) = fun _ => 0 := funext fun a => by fin_cases a <;> rfl

/-- The printed index maps, decided over the 128 grid points: every window sits at the batch and head of the weights'
    block (the mask at head 0), the queries, the mask and the output at the weights' block of query rows, the keys and
    values at their only block; and the weights' block indices stay in their ranges. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 4 ∧ win0_5.index t (1 : Fin 4) < 16 ∧ win0_5.index t (2 : Fin 4) < 2
      ∧ win0_5.index t (3 : Fin 4) = 0) :=
  (by decide +kernel : ∀ t : Fin grid0.N, _)

/-- Every batch, head and half of the query rows is SOME point's. -/
theorem idx_onto : ∀ (n : Fin 4) (h : Fin 16) (qi : Fin 2), ∃ t : Fin cfg0.N, win0_5.index t = ![n.val, h.val, qi.val, 0] :=
  (by decide +kernel : ∀ (n : Fin 4) (h : Fin 16) (qi : Fin 2), ∃ t : Fin grid0.N, win0_5.index t = ![n.val, h.val, qi.val, 0])

/-! ## The input blocks as entries of the argument arrays -/

/-- The query block at a point: row `p` is query row `512·qi + p` of the point's batch and head. -/
theorem qblk_apply (c : Dev nD) (t : Fin cfg0.N) (p : Fin 512) (d : Fin 64) (n : Fin 4) (h : Fin 16) (l : Fin 1024)
    (hn : n.val = win0_5.index t (0 : Fin 4)) (hh : h.val = win0_5.index t (1 : Fin 4))
    (hl : l.val = win0_5.index t (2 : Fin 4) * 512 + p.val) :
    (iblk m c 0 t : Vec Ideal S1x1x512x64 .f32) (ix4 (0 : Fin 1) (0 : Fin 1) p d)
      = (m ((c : Thread nD τ).loc main_arg0) : S4x16x1024x64.Idx → EReal) (ix4 n h l d) := by
  obtain ⟨⟨e0, e1, e2, e3⟩, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = n.val; omega
  | ⟨1, _⟩ => show win0_0.index t (1 : Fin 4) * 1 + 1 * 0 = h.val; omega
  | ⟨2, _⟩ => show win0_0.index t (2 : Fin 4) * 512 + 1 * p.val = l.val; omega
  | ⟨3, _⟩ => show win0_0.index t (3 : Fin 4) * 64 + 1 * d.val = d.val; omega

/-- The key block at a point: all keys of the point's batch and head. -/
theorem kblk_apply (c : Dev nD) (t : Fin cfg0.N) (d : Fin 64) (j : Fin 1024) (n : Fin 4) (h : Fin 16)
    (hn : n.val = win0_5.index t (0 : Fin 4)) (hh : h.val = win0_5.index t (1 : Fin 4)) :
    (iblk m c 1 t : Vec Ideal S1x1x64x1024 .f32) (ix4 (0 : Fin 1) (0 : Fin 1) d j)
      = (m ((c : Thread nD τ).loc main_arg1) : S4x16x64x1024.Idx → EReal) (ix4 n h d j) := by
  obtain ⟨-, ⟨e0, e1, e2, e3⟩, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * 0 = n.val; omega
  | ⟨1, _⟩ => show win0_1.index t (1 : Fin 4) * 1 + 1 * 0 = h.val; omega
  | ⟨2, _⟩ => show win0_1.index t (2 : Fin 4) * 64 + 1 * d.val = d.val; omega
  | ⟨3, _⟩ => show win0_1.index t (3 : Fin 4) * 1024 + 1 * j.val = j.val; omega

/-- The value block at a point: all values of the point's batch and head. -/
theorem vblk_apply (c : Dev nD) (t : Fin cfg0.N) (j : Fin 1024) (e : Fin 64) (n : Fin 4) (h : Fin 16)
    (hn : n.val = win0_5.index t (0 : Fin 4)) (hh : h.val = win0_5.index t (1 : Fin 4)) :
    (iblk m c 2 t : Vec Ideal S1x1x1024x64 .f32) (ix4 (0 : Fin 1) (0 : Fin 1) j e)
      = (m ((c : Thread nD τ).loc main_arg2) : S4x16x1024x64.Idx → EReal) (ix4 n h j e) := by
  obtain ⟨-, -, ⟨e0, e1, e2, e3⟩, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 4) * 1 + 1 * 0 = n.val; omega
  | ⟨1, _⟩ => show win0_2.index t (1 : Fin 4) * 1 + 1 * 0 = h.val; omega
  | ⟨2, _⟩ => show win0_2.index t (2 : Fin 4) * 1024 + 1 * j.val = j.val; omega
  | ⟨3, _⟩ => show win0_2.index t (3 : Fin 4) * 64 + 1 * e.val = e.val; omega

/-- The mask block at a point: row `p` is query row `512·qi + p` of the point's batch, whatever the head. -/
theorem mblk_apply (c : Dev nD) (t : Fin cfg0.N) (p : Fin 512) (j : Fin 1024) (n : Fin 4) (l : Fin 1024)
    (hn : n.val = win0_5.index t (0 : Fin 4)) (hl : l.val = win0_5.index t (2 : Fin 4) * 512 + p.val) :
    (iblk m c 3 t : Vec Ideal S1x1x512x1024 .f32) (ix4 (0 : Fin 1) (0 : Fin 1) p j)
      = (m ((c : Thread nD τ).loc main_arg3) : S4x1x1024x1024.Idx → EReal) (ix4 n (0 : Fin 1) l j) := by
  obtain ⟨-, -, -, ⟨e0, e1, e2, e3⟩, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 4) * 1 + 1 * 0 = n.val; omega
  | ⟨1, _⟩ => show win0_3.index t (1 : Fin 4) * 1 + 1 * 0 = 0; omega
  | ⟨2, _⟩ => show win0_3.index t (2 : Fin 4) * 512 + 1 * p.val = l.val; omega
  | ⟨3, _⟩ => show win0_3.index t (3 : Fin 4) * 1024 + 1 * j.val = j.val; omega

/-! ## What a point computes is a block of the attention function -/

/-- The weights the body computes at a point, at `(p, j)`, are the attention weights of query row `512·qi + p` of the
    point's batch and head at key `j`. -/
theorem weights_at (c : Dev nD) (t : Fin cfg0.N) (p : Fin 512) (j : Fin 1024) (n : Fin 4) (h : Fin 16) (l : Fin 1024)
    (hn : n.val = win0_5.index t (0 : Fin 4)) (hh : h.val = win0_5.index t (1 : Fin 4))
    (hl : l.val = win0_5.index t (2 : Fin 4) * 512 + p.val) :
    k0_pay3 (iblk m c 0 t) (iblk m c 1 t) (iblk m c 3 t) (ix2 p j)
      = weights (m ((c : Thread nD τ).loc main_arg0)) (m ((c : Thread nD τ).loc main_arg1))
          (m ((c : Thread nD τ).loc main_arg3)) (ix4 n h l j) := by
  refine (weights_block (iblk m c 0 t) (iblk m c 1 t) (iblk m c 3 t) p j).trans ?_
  rw [weights_apply]
  refine congrArg (fun f => softmax f j) (funext fun k => ?_)
  refine congrArg₂ blend (mblk_apply m c t p k n l hn hl) ?_
  refine Finset.sum_congr rfl fun d _ => ?_
  exact congrArg₂ (fun a b : EReal => a * Ideal.ofBits .f32 0x3E000000#32 * b)
    (qblk_apply m c t p d n h l hn hh hl) (kblk_apply m c t d k n h hn hh)

/-! ## The weights array -/

/-- WHAT POINT `t` WRITES BACK to the weights array is block `t` of the attention weights of the argument arrays. -/
theorem flushed5_eq (c : Dev nD) (t : Fin cfg0.N) :
    (dats m 0 c).flushed 5 t = ((cfg0.win 5).blk t).view.read (Elt Ideal)
      (weights (m ((c : Thread nD τ).loc main_arg0)) (m ((c : Thread nD τ).loc main_arg1)) (m ((c : Thread nD τ).loc main_arg3))) := by
  rw [flushed5]
  unfold out0_5
  simp only [View.ld_unit_zero (S := S1x1x512x64) hz, View.ld_unit_zero (S := S1x1x64x1024) hz,
    View.ld_unit_zero (S := S1x1x512x1024) hz]
  obtain ⟨-, -, -, -, -, b0, b1, b2, b3⟩ := idx_facts t
  funext y
  have hy0 : (y 0).val < 1 := (y 0).isLt
  have hy1 : (y 1).val < 1 := (y 1).isLt
  have hy2 : (y 2).val < 512 := (y 2).isLt
  have hy3 : (y 3).val < 1024 := (y 3).isLt
  refine Eq.trans (canon5_eq (iblk m c 0 t) (iblk m c 1 t) (iblk m c 3 t) ((cfg0.win 5).xinj (grid0.coords t) y)) ?_
  have hyi : ix5_0 ((cfg0.win 5).xinj (grid0.coords t) y) = ix2 (⟨(y 2).val, hy2⟩ : Fin 512) (⟨(y 3).val, hy3⟩ : Fin 1024) :=
    funext fun a => Fin.ext (by match a with | ⟨0, _⟩ => rfl | ⟨1, _⟩ => rfl)
  refine Eq.trans (congrArg (k0_pay3 (iblk m c 0 t) (iblk m c 1 t) (iblk m c 3 t)) hyi) ?_
  refine (weights_at m c t ⟨(y 2).val, hy2⟩ ⟨(y 3).val, hy3⟩ ⟨win0_5.index t (0 : Fin 4), b0⟩ ⟨win0_5.index t (1 : Fin 4), b1⟩
    ⟨win0_5.index t (2 : Fin 4) * 512 + (y 2).val, by omega⟩ rfl rfl rfl).trans ?_
  rw [View.read_apply]
  refine congrArg (weights _ _ _) (funext fun a => Fin.ext ?_)
  match a with
  | ⟨0, _⟩ => show win0_5.index t (0 : Fin 4) = win0_5.index t (0 : Fin 4) * 1 + 1 * (y 0).val; omega
  | ⟨1, _⟩ => show win0_5.index t (1 : Fin 4) = win0_5.index t (1 : Fin 4) * 1 + 1 * (y 1).val; omega
  | ⟨2, _⟩ => show win0_5.index t (2 : Fin 4) * 512 + (y 2).val = win0_5.index t (2 : Fin 4) * 512 + 1 * (y 2).val; omega
  | ⟨3, _⟩ => show (y 3).val = win0_5.index t (3 : Fin 4) * 1024 + 1 * (y 3).val; omega

/-- An index of the weights array is in point `t`'s block iff each coordinate is in the block's range on its axis. -/
theorem mem_blk5 (t : Fin cfg0.N) (i : S4x16x1024x1024.Idx) :
    i ∈ ((cfg0.win 5).blk t).view.set ↔ ∀ a : Fin 4, win0_5.index t a * S1x1x512x1024.size a ≤ (i a).val
      ∧ (i a).val < win0_5.index t a * S1x1x512x1024.size a + S1x1x512x1024.size a := by
  show i ∈ ((View.whole main_v0_1).slice (win0_5.rect t)).set ↔ _
  rw [View.set_slice_whole, Rect.mem_set_unit]
  exact Iff.rfl

/-- Every index of the weights array is in some point's block: the point of its batch, head and half of the rows. -/
theorem cover5 (i : S4x16x1024x1024.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 1024 := (i 2).isLt
  have hi3 : (i 3).val < 1024 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 1024 ≤ (i 3).val ∧ (i 3).val < win0_5.index t (3 : Fin 4) * 1024 + 1024; omega

/-- THE WEIGHTS ARRAY after the run is the attention weights of the argument arrays. -/
theorem final5 (c : Dev nD) : (dats m 0 c).arrAt 5 cfg0.N
    = weights (m ((c : Thread nD τ).loc main_arg0)) (m ((c : Thread nD τ).loc main_arg1)) (m ((c : Thread nD τ).loc main_arg3)) :=
  (dats m 0 c).arrAt_eq_of_cover 5 _ (fun t _ => flushed5_eq m c t) cover5

/-! ## The output array -/

/-- WHAT POINT `t` WRITES BACK to the output array is block `t` of the attention output of the argument arrays. -/
theorem flushed4_eq (c : Dev nD) (t : Fin cfg0.N) :
    (dats m 0 c).flushed 4 t = ((cfg0.win 4).blk t).view.read (Elt Ideal)
      (output (m ((c : Thread nD τ).loc main_arg0)) (m ((c : Thread nD τ).loc main_arg1)) (m ((c : Thread nD τ).loc main_arg2))
        (m ((c : Thread nD τ).loc main_arg3))) := by
  rw [flushed4]
  unfold out0_4
  rw [View.canon_unit_zero hz]
  simp only [View.ld_unit_zero (S := S1x1x512x64) hz, View.ld_unit_zero (S := S1x1x64x1024) hz,
    View.ld_unit_zero (S := S1x1x1024x64) hz, View.ld_unit_zero (S := S1x1x512x1024) hz]
  obtain ⟨-, -, -, -, ⟨e0, e1, e2, e3⟩, b0, b1, b2, b3⟩ := idx_facts t
  funext y
  have hy0 : (y 0).val < 1 := (y 0).isLt
  have hy1 : (y 1).val < 1 := (y 1).isLt
  have hy2 : (y 2).val < 512 := (y 2).isLt
  have hy3 : (y 3).val < 64 := (y 3).isLt
  have hyi : (cfg0.win 4).xinj (grid0.coords t) y
      = (ix4 (0 : Fin 1) (0 : Fin 1) (⟨(y 2).val, hy2⟩ : Fin 512) (⟨(y 3).val, hy3⟩ : Fin 64) : S1x1x512x64.Idx) :=
    funext fun a => Fin.ext (by
      match a with
      | ⟨0, _⟩ => show (y 0).val = 0; omega
      | ⟨1, _⟩ => show (y 1).val = 0; omega
      | ⟨2, _⟩ => rfl
      | ⟨3, _⟩ => rfl)
  refine Eq.trans (congrArg (k0_pay1 (k0_pay2 (iblk m c 2 t)) (k0_pay3 (iblk m c 0 t) (iblk m c 1 t) (iblk m c 3 t))) hyi) ?_
  refine (output_block (iblk m c 2 t) (k0_pay3 (iblk m c 0 t) (iblk m c 1 t) (iblk m c 3 t)) ⟨(y 2).val, hy2⟩ ⟨(y 3).val, hy3⟩).trans ?_
  rw [View.read_apply]
  have hidx : ((cfg0.win 4).blk t).view.emb y
      = (ix4 (⟨win0_5.index t (0 : Fin 4), b0⟩ : Fin 4) (⟨win0_5.index t (1 : Fin 4), b1⟩ : Fin 16)
          (⟨win0_5.index t (2 : Fin 4) * 512 + (y 2).val, by omega⟩ : Fin 1024) (⟨(y 3).val, hy3⟩ : Fin 64) : S4x16x1024x64.Idx) :=
    funext fun a => Fin.ext (by
      match a with
      | ⟨0, _⟩ => show win0_4.index t (0 : Fin 4) * 1 + 1 * (y 0).val = win0_5.index t (0 : Fin 4); omega
      | ⟨1, _⟩ => show win0_4.index t (1 : Fin 4) * 1 + 1 * (y 1).val = win0_5.index t (1 : Fin 4); omega
      | ⟨2, _⟩ => show win0_4.index t (2 : Fin 4) * 512 + 1 * (y 2).val = win0_5.index t (2 : Fin 4) * 512 + (y 2).val; omega
      | ⟨3, _⟩ => show win0_4.index t (3 : Fin 4) * 64 + 1 * (y 3).val = (y 3).val; omega)
  refine Eq.trans ?_ (congrArg (output _ _ _ _) hidx).symm
  rw [output_apply]
  refine Finset.sum_congr rfl fun j _ => ?_
  exact congrArg₂ (fun a b : EReal => a * b)
    (weights_at m c t ⟨(y 2).val, hy2⟩ j ⟨win0_5.index t (0 : Fin 4), b0⟩ ⟨win0_5.index t (1 : Fin 4), b1⟩
      ⟨win0_5.index t (2 : Fin 4) * 512 + (y 2).val, by omega⟩ rfl rfl rfl)
    (vblk_apply m c t j ⟨(y 3).val, hy3⟩ ⟨win0_5.index t (0 : Fin 4), b0⟩ ⟨win0_5.index t (1 : Fin 4), b1⟩ rfl rfl)

/-- An index of the output array is in point `t`'s block iff each coordinate is in the block's range on its axis. -/
theorem mem_blk4 (t : Fin cfg0.N) (i : S4x16x1024x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every index of the output array is in some point's block. -/
theorem cover4 (i : S4x16x1024x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 1024 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, -, ⟨e0, e1, e2, e3⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE OUTPUT ARRAY after the run is the attention output of the argument arrays. -/
theorem final4 (c : Dev nD) : (dats m 0 c).arrAt 4 cfg0.N
    = output (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-! ## The run, read -/

/-- The kernel's run: the two result arrays end at the attention output and the attention weights of the argument
    arrays, and the arguments end unchanged. -/
theorem run : θ_run defs (onTc (τ := τ) (main (F := Ideal))) ⟨m, fun _ => 0, ρ⟩ fun r => ∀ c : Dev nD,
      r.2.mem ((c : Thread nD τ).loc main_v0_0)
        = output (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.Arrays

end
-- ==== Proof.RefValue.lean ====
/-
  THE REFERENCE, STAGE BY STAGE, IS THE ATTENTION FUNCTION.

  The host program takes the inner products of query rows with key columns, divides by the pattern of 8.0, blends with
  the mask, and takes the softmax over the keys in the usual spelling: the row maximum (folded from `-∞`, then once
  more compared with `-∞`, which changes nothing), the exponentials of the differences, their row sum (added to a
  zero), the quotient; the output is the product of the weights with the values. Read index by index this is the
  attention function with the scores divided by 8, and on real queries and keys that is the function with the queries
  scaled by 1/8.
-/
import proofs.«125262_j206158430384_2_alg».proof.Proof.Gen.ReferenceIdeal.Read
import Idealize.ShloMosaic.PureOps.Ideal.Laws
import proofs.«125262_j206158430384_2_alg».proof.Proof.Attention

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Attention

variable (x0 : (⟨S4x16x1024x64, .f32⟩ : BufTy).Contents (Elt Ideal)) (x1 : (⟨S4x16x64x1024, .f32⟩ : BufTy).Contents (Elt Ideal))
  (x2 : (⟨S4x16x1024x64, .f32⟩ : BufTy).Contents (Elt Ideal)) (x3 : (⟨S4x1x1024x1024, .f32⟩ : BufTy).Contents (Elt Ideal))

/-- The blended scores: the mask entry of `(n, l, j)` blends the inner product of query row `(n, h, l)` with key
    column `j`, divided by 8. -/
theorem blended_apply (n : Fin 4) (h : Fin 16) (l j : Fin 1024) :
    val_main_v10 (F := Ideal) x0 x1 x3 (ix4 n h l j)
      = blend (x3 (ix4 n (0 : Fin 1) l j)) (scoreDivided x0 x1 n h l j) := by
  have e3 : idx_main_v3 (ix4 n h l j) = ix4 n (0 : Fin 1) l j :=
    funext fun a => Fin.ext (by match a with | ⟨0, _⟩ => rfl | ⟨1, _⟩ => rfl | ⟨2, _⟩ => rfl | ⟨3, _⟩ => rfl)
  have e9 : idx_main_v9 (ix4 n h l j) = ix4 n (0 : Fin 1) l j :=
    funext fun a => Fin.ext (by match a with | ⟨0, _⟩ => rfl | ⟨1, _⟩ => rfl | ⟨2, _⟩ => rfl | ⟨3, _⟩ => rfl)
  have el : ∀ k : Fin 64, lidx_main_v0 (ix4 n h l j) k = ix4 n h l k := fun k =>
    funext fun a => Fin.ext (by match a with | ⟨0, _⟩ => rfl | ⟨1, _⟩ => rfl | ⟨2, _⟩ => rfl | ⟨3, _⟩ => rfl)
  have er : ∀ k : Fin 64, ridx_main_v0 (ix4 n h l j) k = ix4 n h k j := fun k =>
    funext fun a => Fin.ext (by match a with | ⟨0, _⟩ => rfl | ⟨1, _⟩ => rfl | ⟨2, _⟩ => rfl | ⟨3, _⟩ => rfl)
  rw [val_main_v10_apply, val_main_v4_apply, val_main_v3_apply, val_main_v2_apply, val_main_v0_apply, val_main_v1_apply,
    val_main_cst_apply, val_main_v9_apply, val_main_v8_apply, val_main_v6_apply, val_main_v5_apply, val_main_cst_0_apply,
    val_main_v7_apply, val_main_cst_1_apply]
  simp only [e3, e9, el, er]
  rfl

/-- The reduced axis put back: row `(n, h, l)` with the key coordinate `k` is the index `(n, h, l, k)`. -/
theorem lift_key (hr : S4x16x1024x1024.Reduces [3] S4x16x1024) (n : Fin 4) (h : Fin 16) (l k : Fin 1024) :
    hr.lift (ix3 n h l) k = ix4 n h l k :=
  funext fun a => Fin.ext (by match a with | ⟨0, _⟩ => rfl | ⟨1, _⟩ => rfl | ⟨2, _⟩ => rfl | ⟨3, _⟩ => rfl)

/-- The row maximum: the fold of `max` from `-∞` over the row's blended scores; comparing it once more with `-∞`
    changes nothing. -/
theorem rowmax_apply (n : Fin 4) (h : Fin 16) (l : Fin 1024) :
    val_main_v13 (F := Ideal) x0 x1 x3 (ix3 n h l)
      = rowMax (fun k : Fin 1024 => val_main_v10 (F := Ideal) x0 x1 x3 (ix4 n h l k)) := by
  have hr : S4x16x1024x1024.Reduces [3] S4x16x1024 := by decide
  have hf : (val_main_v10 (F := Ideal) x0 x1 x3 ∘ hr.lift (ix3 n h l))
      = fun k : Fin 1024 => val_main_v10 (F := Ideal) x0 x1 x3 (ix4 n h l k) :=
    funext fun k => congrArg (val_main_v10 (F := Ideal) x0 x1 x3) (lift_key hr n h l k)
  have hfold : val_main_v11 (F := Ideal) x0 x1 x3 (ix3 n h l)
      = rowMax (fun k : Fin 1024 => val_main_v10 (F := Ideal) x0 x1 x3 (ix4 n h l k)) := by
    unfold val_main_v11
    refine (Host.reduce_eq_fold_single (FloatOps.maximumf (F := Ideal) (φ := .f32)) _ _
      reducesTo_S4x16x1024x1024_S4x16x1024_d3 hr h_S_ (ix3 n h l)).trans ?_
    show (Finset.univ : Finset (Fin 1024)).fold max (Ideal.ofBits .f32 0xFF800000#32)
      (val_main_v10 (F := Ideal) x0 x1 x3 ∘ hr.lift (ix3 n h l)) = _
    rw [hf]
    rfl
  rw [val_main_v13_apply, val_main_v12_apply, val_main_cst_3_apply, hfold]
  exact max_init_rowMax _

/-- The exponential of a blended score less its row's maximum. -/
theorem exp_apply (n : Fin 4) (h : Fin 16) (l j : Fin 1024) :
    val_main_v17 (F := Ideal) x0 x1 x3 (ix4 n h l j)
      = Ideal.exp (val_main_v10 (F := Ideal) x0 x1 x3 (ix4 n h l j)
          - rowMax (fun k : Fin 1024 => val_main_v10 (F := Ideal) x0 x1 x3 (ix4 n h l k))) := by
  have e : idx_main_v14 (idx_main_v15 (ix4 n h l j)) = ix3 n h l :=
    funext fun a => Fin.ext (by match a with | ⟨0, _⟩ => rfl | ⟨1, _⟩ => rfl | ⟨2, _⟩ => rfl)
  rw [val_main_v17_apply, val_main_v16_apply, val_main_v15_apply, val_main_v14_apply, e, rowmax_apply]
  rfl

/-- The weights the reference returns: at `(n, h, l, j)` the softmax, at key `j`, of the row's blended scores. -/
theorem softmax_apply (n : Fin 4) (h : Fin 16) (l j : Fin 1024) :
    val_main_v21 (F := Ideal) x0 x1 x3 (ix4 n h l j)
      = softmax (fun k : Fin 1024 => val_main_v10 (F := Ideal) x0 x1 x3 (ix4 n h l k)) j := by
  have e : idx_main_v19 (idx_main_v20 (ix4 n h l j)) = ix3 n h l :=
    funext fun a => Fin.ext (by match a with | ⟨0, _⟩ => rfl | ⟨1, _⟩ => rfl | ⟨2, _⟩ => rfl)
  have ek : ∀ k : Fin 1024, idx_main_v18 (ix3 n h l) k = ix4 n h l k := fun k =>
    funext fun a => Fin.ext (by match a with | ⟨0, _⟩ => rfl | ⟨1, _⟩ => rfl | ⟨2, _⟩ => rfl | ⟨3, _⟩ => rfl)
  rw [val_main_v21_apply, val_main_v20_apply, val_main_v19_apply, e, val_main_v18_apply, val_main_cst_4_apply]
  simp only [ek, exp_apply]
  show Ideal.div _ (Ideal.ofBits .f32 0x00000000#32 + _) = _
  rw [Ideal.ofBits_zero_f32, zero_add]
  rfl

/-- THE REFERENCE'S WEIGHTS ARE THE ATTENTION WEIGHTS, on real queries and keys. -/
theorem weights_eq (hQ : ∀ i, ∃ r : ℝ, x0 i = (r : EReal)) (hK : ∀ i, ∃ r : ℝ, x1 i = (r : EReal)) :
    val_main_v21 (F := Ideal) x0 x1 x3 = weights x0 x1 x3 := by
  funext i
  obtain ⟨n, h, l, j, rfl⟩ : ∃ (n : Fin 4) (h : Fin 16) (l j : Fin 1024), i = ix4 n h l j := ⟨i 0, i 1, i 2, i 3, eq_ix4 i⟩
  rw [softmax_apply, weights_apply]
  have hrow : (fun k : Fin 1024 => val_main_v10 (F := Ideal) x0 x1 x3 (ix4 n h l k))
      = fun k : Fin 1024 => blend (x3 (ix4 n (0 : Fin 1) l k)) (scoreScaled x0 x1 n h l k) :=
    funext fun k => by rw [blended_apply, scoreDivided_eq_scoreScaled x0 x1 hQ hK]
  rw [hrow]

/-- THE REFERENCE'S OUTPUT IS THE ATTENTION OUTPUT, on real queries and keys. -/
theorem output_eq (hQ : ∀ i, ∃ r : ℝ, x0 i = (r : EReal)) (hK : ∀ i, ∃ r : ℝ, x1 i = (r : EReal)) :
    val_main_v22 (F := Ideal) x0 x1 x2 x3 = output x0 x1 x2 x3 := by
  funext i
  obtain ⟨n, h, l, e, rfl⟩ : ∃ (n : Fin 4) (h : Fin 16) (l : Fin 1024) (e : Fin 64), i = ix4 n h l e :=
    ⟨i 0, i 1, i 2, i 3, eq_ix4 i⟩
  have el : ∀ k : Fin 1024, lidx_main_v22 (ix4 n h l e) k = ix4 n h l k := fun k =>
    funext fun a => Fin.ext (by match a with | ⟨0, _⟩ => rfl | ⟨1, _⟩ => rfl | ⟨2, _⟩ => rfl | ⟨3, _⟩ => rfl)
  have er : ∀ k : Fin 1024, ridx_main_v22 (ix4 n h l e) k = ix4 n h k e := fun k =>
    funext fun a => Fin.ext (by match a with | ⟨0, _⟩ => rfl | ⟨1, _⟩ => rfl | ⟨2, _⟩ => rfl | ⟨3, _⟩ => rfl)
  rw [val_main_v22_apply, output_apply, weights_eq x0 x1 x3 hQ hK]
  simp only [el, er]

end Cert.ReferenceIdeal.RefValue

end
-- ==== Proof.Finite.lean ====
/-
  FINITE INPUTS ARE REAL. The precondition says of every input array that each entry's absolute value is below `+∞`.
  An extended real with that property is a real number; here this is read off for the queries and the keys, the two
  arrays whose entries the scaling law moves a factor across.
-/
import proofs.«125262_j206158430384_2_alg».proof.Pre_finite_inputs
import proofs.«125262_j206158430384_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs Cert.Pre_finite_inputs.Facts

instance : Subsingleton S_.Idx := ⟨fun a b => funext fun d => d.elim0⟩

/-- The pattern of `+∞` denotes the top of the extended reals. -/
theorem ofBits_inf : Ideal.ofBits .f32 0x7F800000#32 = ⊤ := by
  simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- Under the precondition every query entry and every key entry is a real number. -/
theorem real_queries_keys (a0 : FVec Ideal S4x16x1024x64 .f32) (a1 : FVec Ideal S4x16x64x1024 .f32)
    (a2 : FVec Ideal S4x16x1024x64 .f32) (a3 : FVec Ideal S4x1x1024x1024 .f32)
    (h : fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [fn, fn_part1] at h0
  obtain ⟨h13, -⟩ := IntOp.andi_eq_one.1 h0
  obtain ⟨h8, -⟩ := IntOp.andi_eq_one.1 h13
  obtain ⟨h3, h7⟩ := IntOp.andi_eq_one.1 h8
  refine ⟨fun i => ?_, fun i => ?_⟩
  · exact real_of_abs_lt (a0 i) (Host.reduce_andi_all _ _ _ _ _ h3 i)
  · exact real_of_abs_lt (a1 i) (Host.reduce_andi_all _ _ _ _ _ h7 i)

end Cert.Finite

end
-- ==== Proof.lean ====
/-
  Masked scaled-dot-product attention: a fused kernel against its plain reference, on the extended reals.

  Both programs return the attention output and the attention weights of queries `q`, keys `k` (already transposed),
  values `v` and a mask shared by the heads. The kernel works one batch, head and half of the query rows at a time:
  it scales the query rows by 1/8, multiplies by the keys, blends the scores with the mask
  (`mask · s + (1 - mask) · c` for a large negative `c`), normalises each row by softmax and multiplies by the values.
  The reference does the same on whole arrays, except that it divides the scores by 8 instead of scaling the queries.

  On the extended reals a change of float format is the identity, a product accumulated into zeros is the plain sum
  of products, and the two softmax spellings are the same function of the blended scores. The one real difference —
  `∑ (q · 1/8) · k` against `(∑ q · k) / 8` — is an identity of real numbers, so the proof uses the precondition
  exactly there: finite queries and keys are real (Finite.lean). The kernel's two result arrays are assembled from the
  blocks its grid points write back (KernelValue.lean, over Payload.lean's reading of one point); the reference is
  read stage by stage (RefValue.lean); Attention.lean states the common function and the scaling law.
-/
import proofs.«125262_j206158430384_2_alg».proof.Defs
import proofs.«125262_j206158430384_2_alg».proof.Proof.Gen.Kernel
import proofs.«125262_j206158430384_2_alg».proof.Proof.Gen.Kernel.Skeleton
import proofs.«125262_j206158430384_2_alg».proof.Proof.Gen.Kernel.Launch
import proofs.«125262_j206158430384_2_alg».proof.Proof.Gen.Kernel.Points
import proofs.«125262_j206158430384_2_alg».proof.Proof.Gen.Kernel.Frame
import proofs.«125262_j206158430384_2_alg».proof.Proof.Gen.KernelIdeal
import proofs.«125262_j206158430384_2_alg».proof.Proof.Gen.KernelIdeal.Skeleton
import proofs.«125262_j206158430384_2_alg».proof.Proof.Gen.KernelIdeal.Launch
import proofs.«125262_j206158430384_2_alg».proof.Proof.Gen.KernelIdeal.Points
import proofs.«125262_j206158430384_2_alg».proof.Proof.Gen.KernelIdeal.Frame
import proofs.«125262_j206158430384_2_alg».proof.Proof.Gen.ReferenceIdeal
import proofs.«125262_j206158430384_2_alg».proof.Proof.Gen.Pre_finite_inputs
import proofs.«125262_j206158430384_2_alg».proof.Proof.Gen.KernelIdeal.Value
import proofs.«125262_j206158430384_2_alg».proof.Proof.Gen.ReferenceIdeal.Run
import proofs.«125262_j206158430384_2_alg».proof.Proof.Gen.ReferenceIdeal.Read
import proofs.«125262_j206158430384_2_alg».proof.Proof.KernelValue
import proofs.«125262_j206158430384_2_alg».proof.Proof.RefValue
import proofs.«125262_j206158430384_2_alg».proof.Proof.Finite
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealised kernel is the kernel's own text read on the extended reals: nothing was rewritten. -/
theorem preserves : Cert.preserves_Kernel_KernelIdeal := trivial

/-- From memories that agree on finite arguments, the kernel's two result arrays and the reference's two results are
    the attention output and the attention weights of those arguments: the kernel's by assembling its blocks, the
    reference's stage by stage and, the queries and keys being real, by the scaling law. -/
theorem algebraic : Cert.algebraic_KernelIdeal_ReferenceIdeal := by
  intro m ρ m' ρ' hpre hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨hQ, hK⟩ := Cert.Finite.real_queries_keys _ _ _ _ (hpre c)
  obtain ⟨a0, a1, a2, a3⟩ := hagree c
  refine ⟨(h c).1.trans ?_, (h c).2.1.trans ?_, (h c).2.2⟩
  · rw [Cert.ReferenceIdeal.Read.val_main_v22_eq, a0, a1, a2, a3]
    exact Cert.ReferenceIdeal.RefValue.output_eq _ _ _ _ hQ hK
  · rw [Cert.ReferenceIdeal.Read.val_main_v21_eq, a0, a1, a3]
    exact Cert.ReferenceIdeal.RefValue.weights_eq _ _ _ hQ hK

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
